-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2 : Shape := ⟨3, ![8, 4096, 2]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel

variable [Facts]

def fn {F : FTy → Type} [FloatOps F] (main_arg0 : FVec F S8x4096x2 .f32) (main_arg1 : FVec F S8x4096x2 .f32) : IVec S_ 1 :=
  let main_v0 : FVec F S8x4096x2 .f32 := Host.absf main_arg0
  let main_cst : FVec F S_ .f32 := constant S_ .f32 0x7F800000#32
  let main_v1 : FVec F S8x4096x2 .f32 := broadcastInDim S8x4096x2 ![] bcast_S_S8x4096x2 main_cst
  let main_v2 : IVec S8x4096x2 1 := cmpf .olt main_v0 main_v1
  let main_c : IVec S_ 1 := constantI S_ 1 1#1
  let main_v3 : IVec S_ 1 := (fun x v => Host.reduce IntOp.andi x v reducesTo_S8x4096x2_S_d0_1_2 h_S_) main_v2 main_c
  let main_v4 : FVec F S8x4096x2 .f32 := Host.absf main_arg1
  let main_cst_0 : FVec F S_ .f32 := constant S_ .f32 0x7F800000#32
  let main_v5 : FVec F S8x4096x2 .f32 := broadcastInDim S8x4096x2 ![] bcast_S_S8x4096x2 main_cst_0
  let main_v6 : IVec S8x4096x2 1 := cmpf .olt main_v4 main_v5
  let main_c_1 : IVec S_ 1 := constantI S_ 1 1#1
  let main_v7 : IVec S_ 1 := (fun x v => Host.reduce IntOp.andi x v reducesTo_S8x4096x2_S_d0_1_2 h_S_) main_v6 main_c_1
  let main_v8 : IVec S_ 1 := andi main_v3 main_v7
  main_v8
-- ==== Kernel.lean ====
abbrev S8x4096x2 : Shape := ⟨3, ![8, 4096, 2]⟩
abbrev S8x1x4096 : Shape := ⟨3, ![8, 1, 4096]⟩
abbrev S1x256x2 : Shape := ⟨3, ![1, 256, 2]⟩
abbrev S1x4096x2 : Shape := ⟨3, ![1, 4096, 2]⟩
abbrev S1x1x256 : Shape := ⟨3, ![1, 1, 256]⟩
abbrev S1x1x4096 : Shape := ⟨3, ![1, 1, 4096]⟩
abbrev S1x4096 : Shape := ⟨2, ![1, 4096]⟩
abbrev S256x2 : Shape := ⟨2, ![256, 2]⟩
abbrev S4096x2 : Shape := ⟨2, ![4096, 2]⟩
abbrev S256 : Shape := ⟨1, ![256]⟩
abbrev S4096 : Shape := ⟨1, ![4096]⟩
abbrev S256x4096 : Shape := ⟨2, ![256, 4096]⟩
abbrev S256x1 : Shape := ⟨2, ![256, 1]⟩
abbrev S1x256 : Shape := ⟨2, ![1, 256]⟩
abbrev S8x4096 : Shape := ⟨2, ![8, 4096]⟩
abbrev S_ : Shape := ⟨0, ![]⟩

abbrev nBuf : Space → Nat
  | .hbm => 17
  | .vmem => 9
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x256x2, .f32⟩
  | .local _ .vmem, ⟨1, _⟩ => ⟨S1x256x2, .f32⟩
  | .local _ .vmem, ⟨2, _⟩ => ⟨S1x4096x2, .f32⟩
  | .local _ .vmem, ⟨3, _⟩ => ⟨S1x4096x2, .f32⟩
  | .local _ .vmem, ⟨4, _⟩ => ⟨S1x1x256, .f32⟩
  | .local _ .vmem, ⟨5, _⟩ => ⟨S1x1x256, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | _, _ => ⟨S8x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v35 : BitVec 1 := Scalar.cmpi .eq arg1 c15_i32
  let v36 : BitVec 32 := Scalar.extui v35
  let c0_i32_19 : BitVec 32 := 0#32
  let v37 : BitVec 1 := Scalar.cmpi .ne v36 c0_i32_19
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x256x2_S1x256x2_0_0_0 : ∀ a, (![0, 0, 0] : Fin 3 → Nat) a + S1x256x2.size a ≤ S1x256x2.size a
  h_S1x256x2 : 0 < S1x256x2.numel
  shapeCasts_S1x256x2_S256x2 : S1x256x2.ShapeCasts S256x2
  inb_S1x4096x2_S1x4096x2_0_0_0 : ∀ a, (![0, 0, 0] : Fin 3 → Nat) a + S1x4096x2.size a ≤ S1x4096x2.size a
  h_S1x4096x2 : 0 < S1x4096x2.numel
  shapeCasts_S1x4096x2_S4096x2 : S1x4096x2.ShapeCasts S4096x2
  reduces_S256x2_S256 : S256x2.Reduces [1] S256
  reduces_S4096x2_S4096 : S4096x2.Reduces [1] S4096
  shapeCasts_S256_S256x1 : S256.ShapeCasts S256x1
  shapeCasts_S4096_S1x4096 : S4096.ShapeCasts S1x4096
  broadcasts_S256x1_S256x4096 : S256x1.Broadcasts S256x4096
  broadcasts_S1x4096_S256x4096 : S1x4096.Broadcasts S256x4096
  reduces_S256x4096_S256 : S256x4096.Reduces [1] S256
  reduces_S256x4096_S4096 : S256x4096.Reduces [0] S4096
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  shapeCasts_S8x1x4096_S8x4096 : S8x1x4096.ShapeCasts S8x4096
  reducesTo_S8x4096_S_d0_1 : S8x4096.ReducesTo [0, 1] S_
  h_S_ : 0 < S_.numel
  dot_S256x2_S4096x2_S256x4096_1_1_0_0_n_n_wf : DotDims.WF S256x2 S4096x2 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2.size a ≤ S8x4096x2.size a
  hwx0_0 : ∀ i : grid0.Coords, EltTy.bits .f32 = 32 ∨ (Rect.block (s := S8x4096x2) S1x256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x2.size a ≤ S8x4096x2.size a
  hwx0_1 : ∀ i : grid0.Coords, EltTy.bits .f32 = 32 ∨ (Rect.block (s := S8x4096x2) S1x4096x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x4096.size a
  hwx0_2 : ∀ i : grid0.Coords, EltTy.bits .f32 = 32 ∨ (Rect.block (s := S8x1x4096) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S256x2_S4096x2_S256x4096_1_1_0_0_n_n : DotDims S256x2 S4096x2 S256x4096 where
  lhsContracting := [1]
  rhsContracting := [1]
  lhsNonContracting := [0]
  rhsNonContracting := [0]
  lhsBatch := []
  rhsBatch := []
  wf := dot_S256x2_S4096x2_S256x4096_1_1_0_0_n_n_wf

abbrev win0_0 : Pipeline.Window sig grid0 :=
  Pipeline.Window.ofSpec (Memref.whole main_arg0) S1x256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x4096x2 : Shape := ⟨3, ![8, 4096, 2]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096x2, .f32⟩
  | .hbm, ⟨3, _⟩ => ⟨S_, .f32⟩
  | .hbm, ⟨4, _⟩ => ⟨S8x4096, .f32⟩
  | .hbm, ⟨5, _⟩ => ⟨S8x4096x2, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S8x4096x2_S8x4096_d2 : S8x4096x2.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096x4096_S8x4096_d2 : S8x4096x4096.ReducesTo [2] S8x4096
  reducesTo_S8x4096_S_d0_1 : S8x4096.ReducesTo [0, 1] S_
  dot_S8x4096x2_S8x4096x2_S8x4096x4096_2_2_1_1_0_0_wf : DotDims.WF S8x4096x2 S8x4096x2 S8x4096x4096 [2] [2] [1] [1] [0] [0]

variable [Facts₀]

def dot_S8x4096x2_S8x4096x2_S8x4096x4096_2_2_1_1_0_0 : DotDims S8x4096x2 S8x4096x2 S8x4096x4096 where
  lhsContracting := [2]
  rhsContracting := [2]
  lhsNonContracting := [1]
  rhsNonContracting := [1]
  lhsBatch := [0]
  rhsBatch := [0]
  wf := dot_S8x4096x2_S8x4096x2_S8x4096x4096_2_2_1_1_0_0_wf

class Facts : Prop extends Facts₀ where

variable [Facts]
-- ==== Proof.LibMinReduce.lean ====
/-
  A reusable lemma group: a minimum taken along one axis, read at an entry through its lower bounds.

  At the ideal instance `minimumf` is the minimum of the extended reals, so a `vector.multi_reduction <minimumf>` over one
  axis and a host `stablehlo.reduce` with a `minimum` body over one axis are, at a reduced index `j`, the fold of `min`
  from the starting value over the coordinates `k` of the reduced axis, read at `lift j k` (the index `j` with `k`
  inserted). A fold of `min` is best used through its universal property,

      z ≤ fold min b f  ↔  z ≤ b ∧ ∀ k, z ≤ f k,

  which forgets the order and the grouping of the fold; two extended reals with the same lower bounds are equal
  (`eq_of_forall_le_iff`). Generic in the shapes, the axis and the float format. The last section spells the common cases by
  coordinates: the row and the column minima of an [a, b] block in a kernel, and a host minimum over the middle or the last
  axis of an [a, b, c] array.
-/
import Idealize.ShloMosaic.PureOps.Ideal.Laws
import Idealize.ShloMosaic.Lib.ValueIdx

noncomputable section

namespace Cert.MinReduce

open Idealize.ShloMosaic Idealize.ShloMosaic.ValueIdx

variable {φ : FTy}

/-- The lower bounds of a fold of `min` over a whole finite type. -/
theorem le_fold_min_univ_iff {ι : Type} [Fintype ι] (b : EReal) (f : ι → EReal) (z : EReal) :
    z ≤ (Finset.univ : Finset ι).fold min b f ↔ z ≤ b ∧ ∀ i : ι, z ≤ f i := by
  rw [Finset.le_fold_min]
  exact and_congr_right fun _ => ⟨fun h i => h i (Finset.mem_univ _), fun h i _ => h i⟩

/-- Two extended reals with the same lower bounds are equal. -/
theorem eq_of_forall_le_iff {x y : EReal} (h : ∀ z : EReal, z ≤ x ↔ z ≤ y) : x = y :=
  le_antisymm ((h x).mp le_rfl) ((h y).mpr le_rfl)

/-- A float `vector.multi_reduction <minimumf>` over one axis, read at `Ideal`: the fold of `min` from the accumulator's
    value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Its lower bounds: below the accumulator's value and below every entry along the axis. -/
theorem le_multiReduction_minimumf_iff {s t : Shape} {a : Fin s.rank} (src : FVec Ideal s φ) (acc : BitVec φ.bits)
    (h : s.Reduces [a] t) (hφ : FKind.Formats φ) (hacc : acc = FKind.minimumf.neutral φ hφ) (j : t.Idx) (z : EReal) :
    z ≤ multiReduction .minimumf [a] t src acc h hφ hacc j
      ↔ z ≤ Ideal.ofBits φ acc ∧ ∀ k : Fin (s.size a), z ≤ src (h.lift j k) := by
  rw [multiReduction_minimumf_single]
  exact le_fold_min_univ_iff _ _ z

/-- A host `stablehlo.reduce` with a `minimum` body over one axis, read at `Ideal`: its lower bounds are those of the
    initial value's element and of every entry along the axis. (`h'` is the host operation's shape fact, `h` the fact at
    the same shapes that names the inserted index.) -/
theorem le_hostReduce_minimumf_iff {s t u : Shape} {a : Fin s.rank} (x : s.Idx → EReal) (init : u.Idx → EReal)
    (h' : s.ReducesTo [a] t) (h : s.Reduces [a] t) (hu : 0 < u.numel) (j : t.Idx) (z : EReal) :
    z ≤ Host.reduce (FloatOps.minimumf (F := Ideal) (φ := φ)) x init h' hu j
      ↔ z ≤ init (Shape.Idx.first hu) ∧ ∀ k : Fin (s.size a), z ≤ x (h.lift j k) := by
  rw [Host.reduce_eq_fold_single (FloatOps.minimumf (F := Ideal) (φ := φ)) x init h' h hu j]
  exact le_fold_min_univ_iff _ _ z

/-! ## By coordinates -/

/-- The minimum along row `r` of an [a, b] block: below the accumulator's value and below every entry of the row. -/
theorem le_rowMin_iff {a b : Nat} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) (z : EReal) :
    z ≤ multiReduction .minimumf [1] ⟨1, ![a]⟩ src acc h hφ hacc (ix1 r)
      ↔ z ≤ Ideal.ofBits φ acc ∧ ∀ m : Fin b, z ≤ src (ix2 r m) := by
  rw [le_multiReduction_minimumf_iff]
  have e : ∀ m : Fin b, h.lift (ix1 r) m = ix2 r m := fun m =>
    funext fun ax => Fin.ext (by match ax with | ⟨0, _⟩ => rfl | ⟨1, _⟩ => rfl)
  exact and_congr_right fun _ => ⟨fun H m => e m ▸ H m, fun H m => (e m).symm ▸ H m⟩

/-- The minimum down column `m` of an [a, b] block: below the accumulator's value and below every entry of the column. -/
theorem le_colMin_iff {a b : Nat} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (m : Fin b) (z : EReal) :
    z ≤ multiReduction .minimumf [0] ⟨1, ![b]⟩ src acc h hφ hacc (ix1 m)
      ↔ z ≤ Ideal.ofBits φ acc ∧ ∀ r : Fin a, z ≤ src (ix2 r m) := by
  rw [le_multiReduction_minimumf_iff]
  have e : ∀ r : Fin a, h.lift (ix1 m) r = ix2 r m := fun r =>
    funext fun ax => Fin.ext (by match ax with | ⟨0, _⟩ => rfl | ⟨1, _⟩ => rfl)
  exact and_congr_right fun _ => ⟨fun H r => e r ▸ H r, fun H r => (e r).symm ▸ H r⟩

/-- A host minimum over the MIDDLE axis of an [a, b, c] array at (i, k): below the initial value and below every entry
    (i, j, k). -/
theorem le_hostMin_mid_iff {a b c : Nat} {u : Shape} (x : (⟨3, ![a, b, c]⟩ : Shape).Idx → EReal) (init : u.Idx → EReal)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) (z : EReal) :
    z ≤ Host.reduce (FloatOps.minimumf (F := Ideal) (φ := φ)) x init h' hu (ix2 i k)
      ↔ z ≤ init (Shape.Idx.first hu) ∧ ∀ j : Fin b, z ≤ x (ix3 i j k) := by
  rw [le_hostReduce_minimumf_iff x init h' h hu]
  have e : ∀ j : Fin b, h.lift (ix2 i k) j = ix3 i j k := fun j =>
    funext fun ax => Fin.ext (by match ax with | ⟨0, _⟩ => rfl | ⟨1, _⟩ => rfl | ⟨2, _⟩ => rfl)
  exact and_congr_right fun _ => ⟨fun H j => e j ▸ H j, fun H j => (e j).symm ▸ H j⟩

/-- A host minimum over the LAST axis of an [a, b, c] array at (i, j): below the initial value and below every entry
    (i, j, k). -/
theorem le_hostMin_last_iff {a b c : Nat} {u : Shape} (x : (⟨3, ![a, b, c]⟩ : Shape).Idx → EReal) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) (z : EReal) :
    z ≤ Host.reduce (FloatOps.minimumf (F := Ideal) (φ := φ)) x init h' hu (ix2 i j)
      ↔ z ≤ init (Shape.Idx.first hu) ∧ ∀ k : Fin c, z ≤ x (ix3 i j k) := by
  rw [le_hostReduce_minimumf_iff x init h' h hu]
  have e : ∀ k : Fin c, h.lift (ix2 i j) k = ix3 i j k := fun k =>
    funext fun ax => Fin.ext (by match ax with | ⟨0, _⟩ => rfl | ⟨1, _⟩ => rfl | ⟨2, _⟩ => rfl)
  exact and_congr_right fun _ => ⟨fun H k => e k ▸ H k, fun H k => (e k).symm ▸ H k⟩

end Cert.MinReduce

end
-- ==== Proof.Spec.lean ====
/-
  The specification: a symmetric min-matching loss between two clouds of points of the plane.

  For two batches of point clouds `pred, gt : [8, 4096, 2]` over the extended reals, the clamped Euclidean distance of
  two points `a, b` (their two coordinates) is

      d a b = √ (max ((|a|² + |b|²) − 2 · ⟨a, b⟩) ε),     |a|² = Σ_k a_k · a_k,   ⟨a, b⟩ = Σ_k a_k · b_k,

  with ε the single-precision word nearest 1e-12. For each batch entry `β` the matrix `dist β n m = d (pred β n) (gt β m)`
  is minimised along each row (`rowMin`: for a point of `pred`, its nearest point of `gt`) and along each column
  (`colMin`: for a point of `gt`, its nearest point of `pred`), every minimum taken from +∞. A minimum over a
  finite family is used only through its universal property: `z ≤ min` iff `z` is below the starting value and below
  every member of the family — so the order and the grouping in which the family is visited never matter.
-/
import Idealize.ShloMosaic.PureOps.Ideal.Laws
import Idealize.ShloMosaic.Lib.ValueIdx
import proofs.«148439_j40200893890957_2_alg».proof.Proof.LibMinReduce

noncomputable section

namespace Cert.MinMatch

open Idealize.ShloMosaic Idealize.ShloMosaic.ValueIdx

/-- The single-precision words of 2, of ε ≈ 1e-12 and of +∞, as extended reals (never evaluated: the same words occur on
    both sides). -/
abbrev TWO : EReal := Ideal.ofBits .f32 0x40000000#32
abbrev EPS : EReal := Ideal.ofBits .f32 0x2B8CBCCC#32
abbrev INF : EReal := Ideal.ofBits .f32 0x7F800000#32

/-- The clamped Euclidean distance of two points of the plane, given by their two coordinates. -/
def d (a b : Fin 2 → EReal) : EReal :=
  Ideal.sqrt (max (((∑ k : Fin 2, a k * a k) + (∑ k : Fin 2, b k * b k)) - TWO * (∑ k : Fin 2, a k * b k)) EPS)

/-- A batch of eight clouds of 4096 points of the plane. -/
abbrev Cloud : Type := (⟨3, ![8, 4096, 2]⟩ : Shape).Idx → EReal

/-- The distance matrix of batch entry `β`: point `n` of `pred` against point `m` of `gt`. -/
def dist (pred gt : Cloud) (β : Fin 8) (n m : Fin 4096) : EReal :=
  d (fun k => pred (ix3 β n k)) (fun k => gt (ix3 β m k))

/-- For point `n` of `pred`: the distance to its nearest point of `gt`. -/
def rowMin (pred gt : Cloud) (β : Fin 8) (n : Fin 4096) : EReal :=
  (Finset.univ : Finset (Fin 4096)).fold min INF (fun m => dist pred gt β n m)

/-- For point `m` of `gt`: the distance to its nearest point of `pred`. -/
def colMin (pred gt : Cloud) (β : Fin 8) (m : Fin 4096) : EReal :=
  (Finset.univ : Finset (Fin 4096)).fold min INF (fun n => dist pred gt β n m)

theorem le_rowMin_iff (pred gt : Cloud) (β : Fin 8) (n : Fin 4096) (z : EReal) :
    z ≤ rowMin pred gt β n ↔ z ≤ INF ∧ ∀ m : Fin 4096, z ≤ dist pred gt β n m := by
  unfold rowMin
  exact Cert.MinReduce.le_fold_min_univ_iff _ _ z

theorem le_colMin_iff (pred gt : Cloud) (β : Fin 8) (m : Fin 4096) (z : EReal) :
    z ≤ colMin pred gt β m ↔ z ≤ INF ∧ ∀ n : Fin 4096, z ≤ dist pred gt β n m := by
  unfold colMin
  exact Cert.MinReduce.le_fold_min_univ_iff _ _ z

/-- The two arrays of minima, in the layout [8, 1, 4096] of the kernel's outputs. -/
def rowMinArr (pred gt : Cloud) : (⟨3, ![8, 1, 4096]⟩ : Shape).Idx → EReal := fun j => rowMin pred gt (j 0) (j 2)
def colMinArr (pred gt : Cloud) : (⟨3, ![8, 1, 4096]⟩ : Shape).Idx → EReal := fun j => colMin pred gt (j 0) (j 2)

/-- The same minima as [8, 4096] matrices, the layout in which both programs sum them. -/
def rowMinMat (pred gt : Cloud) : (⟨2, ![8, 4096]⟩ : Shape).Idx → EReal := fun j => rowMin pred gt (j 0) (j 1)
def colMinMat (pred gt : Cloud) : (⟨2, ![8, 4096]⟩ : Shape).Idx → EReal := fun j => colMin pred gt (j 0) (j 1)

end Cert.MinMatch

end
-- ==== Proof.LibMatmulNT.lean ====
/-
  A reusable lemma: the product of a matrix with the TRANSPOSE of another, read at an entry.

  A `tpu.matmul` whose dimension numbers contract the LAST axis of both operands — an [M,K] left operand and an
  [N,K] right operand, result [M,N] — accumulated into zeros is, at the ideal instance and at the entry (p, q),
      Σ_k lhs[p,k] · rhs[q,k],
  the sum over k : Fin K.  The statement is generic in M, K, N and in the operands' float formats, and holds for any
  dimension record equal to the library's `DotDims.transposedRhs M K N`.
-/
import Idealize.ShloMosaic.PureOps.Ideal.Laws
import Idealize.ShloMosaic.Lib.ValueIdx

noncomputable section

namespace Cert.MatmulNT

open Idealize.ShloMosaic Idealize.ShloMosaic.ValueIdx

variable {M K N : Nat}

/-- The left operand is read in the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand is read in the row numbered by the result's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- A matrix times the transpose of another, into zeros, at the entry (p, q): Σ_k lhs[p,k] · rhs[q,k]. -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    matmul d prec lhs rhs (constant (F := Ideal) ⟨2, ![M, N]⟩ .f32 0x00000000#32) (ix2 p q)
      = ∑ k : Fin K, lhs (ix2 p k) * rhs (ix2 q k) := by
  subst hd
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact rhs_row _ _
      | ⟨1, _⟩ => exact ((DotDims.transposedRhs M K N).rhsIdx_val_of_single rfl _ _).trans hk)
  rw [el, er]

end Cert.MatmulNT

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.Tile.lean ====
/-
  One tile of the distance matrix, read at an entry.

  At a grid point the kernel body holds a block `x0` of 256 points of `pred` ([1, 256, 2]) and all 4096 points `x1` of
  `gt` of the same batch entry ([1, 4096, 2]). Its arithmetic forms the 256 × 4096 tile of clamped distances: the row
  norms |a|² and the column norms |b|² (sums over the two coordinates, kept as a column and as a row and spread over the
  tile), the inner products ⟨a, b⟩ (a product with the transpose, into zeros), then √(max(|a|² + |b|² − 2⟨a, b⟩, ε)).
  Entry (r, m) of the tile is the distance `d` of the specification between point `r` of the block and point `m`.

  The tile's two minima are then read through their lower bounds: along a row (the block's point `r` against every point
  of `gt`), and down a column (point `m` of `gt` against the block's 256 points), the latter joined by `min` with the
  running minimum carried from the tiles before.
-/
import proofs.«148439_j40200893890957_2_alg».proof.Proof.Gen.KernelIdeal.Skeleton
import proofs.«148439_j40200893890957_2_alg».proof.Proof.Spec
import proofs.«148439_j40200893890957_2_alg».proof.Proof.LibMatmulNT
import proofs.«148439_j40200893890957_2_alg».proof.Proof.LibKeepdimsColumn
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.MinMatch

/-! ## The pieces of the tile -/

/-- The squared norm of row `r` of an [a, 2] block: the sum over its two coordinates. -/
theorem sqnorm_apply {a : Nat} (v : FVec Ideal ⟨2, ![a, 2]⟩ .f32) (h : (⟨2, ![a, 2]⟩ : Shape).Reduces [1] ⟨1, ![a]⟩)
    (hφ : FKind.Formats .f32) (hacc : (0x00000000#32 : BitVec 32) = FKind.add.neutral .f32 hφ) (r : Fin a) :
    multiReduction .add [1] ⟨1, ![a]⟩ (mulf v v) 0x00000000#32 h hφ hacc (ix1 r)
      = ∑ k : Fin 2, v (ix2 r k) * v (ix2 r k) := by
  refine (Ideal.multiReduction_add_single (mulf v v) _ h hφ hacc (ix1 r)).trans ?_
  refine Finset.sum_congr rfl fun k _ => ?_
  have e : h.lift (ix1 r) k = ix2 r k :=
    funext fun ax => Fin.ext (by match ax with | ⟨0, _⟩ => rfl | ⟨1, _⟩ => rfl)
  rw [e]
  rfl

/-- The row norms, kept as a column and spread over the tile: entry (r, m) is |a_r|². -/
theorem rowNorm_apply {a b : Nat} (v : FVec Ideal ⟨2, ![a, 2]⟩ .f32) (h : (⟨2, ![a, 2]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ (mulf v v) 0x00000000#32 h hφ hacc) hc) hb (ix2 r m)
      = ∑ k : Fin 2, v (ix2 r k) * v (ix2 r k) :=
  (Cert.KeepdimsColumn.broadcastTo_a1_ab_apply _ hb r m).trans
    ((Cert.KeepdimsColumn.shapeCast_a_a1_apply _ hc r 0).trans (sqnorm_apply v h hφ hacc r))

/-- The column norms, kept as a row and spread over the tile: entry (r, m) is |b_m|². -/
theorem colNorm_apply {a b : Nat} (v : FVec Ideal ⟨2, ![b, 2]⟩ .f32) (h : (⟨2, ![b, 2]⟩ : Shape).Reduces [1] ⟨1, ![b]⟩)
    (hφ : FKind.Formats .f32) (hacc : (0x00000000#32 : BitVec 32) = FKind.add.neutral .f32 hφ)
    (hc : (⟨1, ![b]⟩ : Shape).ShapeCasts ⟨2, ![1, b]⟩) (hb : (⟨2, ![1, b]⟩ : Shape).Broadcasts ⟨2, ![a, b]⟩)
    (r : Fin a) (m : Fin b) :
    broadcastTo ⟨2, ![a, b]⟩ (shapeCast ⟨2, ![1, b]⟩ (multiReduction .add [1] ⟨1, ![b]⟩ (mulf v v) 0x00000000#32 h hφ hacc) hc) hb (ix2 r m)
      = ∑ k : Fin 2, v (ix2 m k) * v (ix2 m k) :=
  (broadcastTo_1b_ab_apply _ hb r m).trans
    ((shapeCast_a_1a_apply _ hc 0 m).trans (sqnorm_apply v h hφ hacc m))

/-- The tile of clamped distances at entry (r, m): the distance between point `r` of the block and point `m`. -/
theorem pay4_apply (x0 : Vec Ideal S1x256x2 .f32) (x1 : Vec Ideal S1x4096x2 .f32) (r : Fin 256) (m : Fin 4096) :
    k0_pay4 (F := Ideal) x0 x1 (ix2 r m)
      = d (fun k => x0 (ix3 (0 : Fin 1) r k)) (fun k => x1 (ix3 (0 : Fin 1) m k)) := by
  unfold k0_pay4 d
  refine congrArg Ideal.sqrt (congrArg₂ max (congrArg₂ (· - ·) (congrArg₂ (· + ·) ?_ ?_) (congrArg₂ (· * ·) rfl ?_)) rfl)
  · refine (rowNorm_apply _ _ _ _ _ _ r m).trans (Finset.sum_congr rfl fun k _ => ?_)
    rw [shapeCast_1ab_ab_apply]
  · refine (colNorm_apply _ _ _ _ _ _ r m).trans (Finset.sum_congr rfl fun k _ => ?_)
    rw [shapeCast_1ab_ab_apply]
  · refine (Cert.MatmulNT.matmul_zero_apply _ rfl _ _ _ r m).trans (Finset.sum_congr rfl fun k _ => ?_)
    rw [shapeCast_1ab_ab_apply, shapeCast_1ab_ab_apply]

/-! ## The two minima of the tile, and the stores' layouts -/

/-- The row minima the body stores ([1, 1, 256]) at (0, 0, r): the lower bounds of the distances from the block's point `r`
    to every point `m`, from +∞. -/
theorem le_pay5_iff (x0 : Vec Ideal S1x256x2 .f32) (x1 : Vec Ideal S1x4096x2 .f32) (r : Fin 256) (z : EReal) :
    z ≤ k0_pay5 (F := Ideal) x0 x1 (ix3 (0 : Fin 1) (0 : Fin 1) r)
      ↔ z ≤ INF ∧ ∀ m : Fin 4096, z ≤ d (fun k => x0 (ix3 (0 : Fin 1) r k)) (fun k => x1 (ix3 (0 : Fin 1) m k)) := by
  unfold k0_pay5
  rw [show ∀ (v : FVec Ideal S256 .f32) h1 h2, shapeCast S1x1x256 (shapeCast S1x256 v h1) h2 (ix3 (0 : Fin 1) (0 : Fin 1) r) = v (ix1 r) from
    fun v h1 h2 => (shapeCast_ab_1ab_apply _ h2 0 0 r).trans (shapeCast_a_1a_apply v h1 0 r)]
  exact (Cert.MinReduce.le_rowMin_iff (k0_pay4 x0 x1) _ _ _ _ r z).trans
    (and_congr_right fun _ => forall_congr' fun m => by rw [pay4_apply])

/-- The running column minima the body stores back ([1, 4096]) at (0, m): the lower bounds of what was carried in and of the
    distances from every point `r` of the block to point `m`, from +∞. -/
theorem le_pay6_iff (x0 : Vec Ideal S1x256x2 .f32) (x1 : Vec Ideal S1x4096x2 .f32) (v29 : Vec Ideal S1x4096 .f32)
    (m : Fin 4096) (z : EReal) :
    z ≤ k0_pay6 (F := Ideal) x0 x1 v29 (ix2 (0 : Fin 1) m)
      ↔ z ≤ v29 (ix2 (0 : Fin 1) m) ∧ z ≤ INF
        ∧ ∀ r : Fin 256, z ≤ d (fun k => x0 (ix3 (0 : Fin 1) r k)) (fun k => x1 (ix3 (0 : Fin 1) m k)) := by
  unfold k0_pay6
  rw [minimumf_apply, le_min_iff, shapeCast_a_1a_apply]
  refine and_congr_right fun _ => ?_
  exact (Cert.MinReduce.le_colMin_iff (k0_pay4 x0 x1) _ _ _ _ m z).trans
    (and_congr_right fun _ => forall_congr' fun r => by rw [pay4_apply])

variable {F : FTy → Type} [FloatOps F]

/-- The store back into the carried buffer keeps the layout. -/
theorem pay1_eq (v31 : FVec F S1x4096 .f32) : k0_pay1 v31 = v31 := shapeCast_self _ _

/-- The copy of the carried buffer into the output block ([1, 4096] → [1, 1, 4096]) at (0, 0, m). -/
theorem pay2_apply (v38 : Vec F S1x4096 .f32) (m : Fin 4096) :
    k0_pay2 v38 (ix3 (0 : Fin 1) (0 : Fin 1) m) = v38 (ix2 (0 : Fin 1) m) :=
  shapeCast_ab_1ab_apply _ _ 0 0 m

/-- The reset of the carried buffer: +∞ everywhere. -/
theorem pay3_apply (j : S1x4096.Idx) : k0_pay3 (F := Ideal) j = INF := by
  unfold k0_pay3
  rw [shapeCast_self]
  rfl

end Cert.KernelIdeal.Tile

end
-- ==== Proof.Pieces.lean ====
/-
  What the body leaves behind at a grid point, as values of the blocks it was handed.

  The body's stores are found by running it once per control case (the first tile of a batch entry, a middle tile, the
  last tile). Read back, in every case the first output's block holds the row minima of the tile (`k0_pay5` of the two
  input blocks); the carried buffer holds the running column minima — in the first case over the reset value +∞ the
  body has just stored there (`k0_pay3`), in the other cases over what the previous point left (`xs0`) —; and in the last
  case the second output's block holds a copy of the carried buffer.  Generic in the float instance.
-/
import proofs.«148439_j40200893890957_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first output: the tile's row minima, in every case -/

theorem out_A_2 (c : Dev nD) (i : grid0.Coords) (arg2 : Memref sig .tc .vmem S1x256x2 .f32) (harg2 : arg2.IsWhole) (arg3 : Memref sig .tc .vmem S1x4096x2 .f32) (harg3 : arg3.IsWhole) (arg4 : Memref sig .tc .vmem S1x1x256 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i)
    (x0 : Vec F S1x256x2 .f32) (x1 : Vec F S1x4096x2 .f32) :
    out0_A_2 c i arg2 harg2 arg3 harg3 arg4 harg4 arg5 harg5 arg6 harg6 hc0 hc1 x0 x1 = k0_pay5 x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  rw [View.canon_unit_zero hz3]
  simp only [View.readAt_eq_ld, harg2.read_unread, harg3.read_unread, harg6.read_unread,
    View.ld_unit_zero (S := S1x256x2) hz3, View.ld_unit_zero (S := S1x4096x2) hz3, View.ld_unit_zero (S := S1x4096) hz2]

theorem out_B_2 (c : Dev nD) (i : grid0.Coords) (arg2 : Memref sig .tc .vmem S1x256x2 .f32) (harg2 : arg2.IsWhole) (arg3 : Memref sig .tc .vmem S1x4096x2 .f32) (harg3 : arg3.IsWhole) (arg4 : Memref sig .tc .vmem S1x1x256 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i)
    (x0 : Vec F S1x256x2 .f32) (x1 : Vec F S1x4096x2 .f32) (xs0 : Vec F S1x4096 .f32) :
    out0_B_2 c i arg2 harg2 arg3 harg3 arg4 harg4 arg5 harg5 arg6 harg6 hc0 hc1 x0 x1 xs0 = k0_pay5 x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  rw [View.canon_unit_zero hz3]
  simp only [View.readAt_eq_ld, harg2.read_unread, harg3.read_unread, harg6.read_unread,
    View.ld_unit_zero (S := S1x256x2) hz3, View.ld_unit_zero (S := S1x4096x2) hz3, View.ld_unit_zero (S := S1x4096) hz2]

theorem out_C_2 (c : Dev nD) (i : grid0.Coords) (arg2 : Memref sig .tc .vmem S1x256x2 .f32) (harg2 : arg2.IsWhole) (arg3 : Memref sig .tc .vmem S1x4096x2 .f32) (harg3 : arg3.IsWhole) (arg4 : Memref sig .tc .vmem S1x1x256 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x256x2 .f32) (x1 : Vec F S1x4096x2 .f32) (xs0 : Vec F S1x4096 .f32) :
    out0_C_2 c i arg2 harg2 arg3 harg3 arg4 harg4 arg5 harg5 arg6 harg6 hc0 hc1 x0 x1 xs0 = k0_pay5 x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  rw [View.canon_unit_zero hz3]
  simp only [View.readAt_eq_ld, harg2.read_unread, harg3.read_unread, harg6.read_unread,
    View.ld_unit_zero (S := S1x256x2) hz3, View.ld_unit_zero (S := S1x4096x2) hz3, View.ld_unit_zero (S := S1x4096) hz2]

/-! ## The carried buffer: the running column minima -/

/-- First tile of a batch entry: the running minima start from the reset value the body has just stored. -/
theorem sout_A_0 (c : Dev nD) (i : grid0.Coords) (arg2 : Memref sig .tc .vmem S1x256x2 .f32) (harg2 : arg2.IsWhole) (arg3 : Memref sig .tc .vmem S1x4096x2 .f32) (harg3 : arg3.IsWhole) (arg4 : Memref sig .tc .vmem S1x1x256 .f32) (harg4 : arg4.IsWhole) (arg5 : Memref sig .tc .vmem S1x1x4096 .f32) (harg5 : arg5.IsWhole) (arg6 : Memref sig .tc .vmem S1x4096 .f32) (harg6 : arg6.IsWhole) (hc0 : cond0_0 i) (hc1 : ¬cond0_1 i)
    (x0 : Vec F S1x256x2 .f32) (x1 : Vec F S1x4096x2 .f32) :
    sout0_A_0 c i arg2 harg2 arg3 harg3 arg4 harg4 arg5 harg5 arg6 harg6 hc0 hc1 x0 x1 = k0_pay1 (k0_pay6 x0 x1 (k0_pay3 (F := F))) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x4096) hz2, View.readCov_unit_zero (S := S1x4096) _ hz2]
  simp only [View.readAt_eq_ld, harg2.read_unread, harg3.read_unread, harg6.read_unread,
    View.ld_unit_zero (S := S1x256x2) hz3, View.ld_unit_zero (S := S1x4096x2) hz3, View.ld_unit_zero (S := S1x4096) hz2]

/-- A later tile: the running minima continue from what the previous point left. -/
theorem sout_B_0 (c : Dev nD) (i : grid0.Coords) (arg2 : Memref sig .tc .vmem S1x256x2 .f32) (harg2 : arg2.IsWhole) (arg3 : Memref sig .tc .vmem S1x4096x2 .f32) (harg3 : arg3.IsWhole) (arg4 : Memref sig .tc .vmem S1x1x256 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : ¬cond0_1 i)
    (x0 : Vec F S1x256x2 .f32) (x1 : Vec F S1x4096x2 .f32) (xs0 : Vec F S1x4096 .f32) :
    sout0_B_0 c i arg2 harg2 arg3 harg3 arg4 harg4 arg5 harg5 arg6 harg6 hc0 hc1 x0 x1 xs0 = k0_pay1 (k0_pay6 x0 x1 xs0) := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread,
    View.ld_unit_zero (S := S1x256x2) hz3, View.ld_unit_zero (S := S1x4096x2) hz3, View.ld_unit_zero (S := S1x4096) hz2]

theorem sout_C_0 (c : Dev nD) (i : grid0.Coords) (arg2 : Memref sig .tc .vmem S1x256x2 .f32) (harg2 : arg2.IsWhole) (arg3 : Memref sig .tc .vmem S1x4096x2 .f32) (harg3 : arg3.IsWhole) (arg4 : Memref sig .tc .vmem S1x1x256 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x256x2 .f32) (x1 : Vec F S1x4096x2 .f32) (xs0 : Vec F S1x4096 .f32) :
    sout0_C_0 c i arg2 harg2 arg3 harg3 arg4 harg4 arg5 harg5 arg6 harg6 hc0 hc1 x0 x1 xs0 = k0_pay1 (k0_pay6 x0 x1 xs0) := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread,
    View.ld_unit_zero (S := S1x256x2) hz3, View.ld_unit_zero (S := S1x4096x2) hz3, View.ld_unit_zero (S := S1x4096) hz2]

/-! ## The second output, at the last tile: a copy of the carried buffer -/

theorem out_C_3 (c : Dev nD) (i : grid0.Coords) (arg2 : Memref sig .tc .vmem S1x256x2 .f32) (harg2 : arg2.IsWhole) (arg3 : Memref sig .tc .vmem S1x4096x2 .f32) (harg3 : arg3.IsWhole) (arg4 : Memref sig .tc .vmem S1x1x256 .f32) (harg4 : arg4.IsWhole) (arg5 : Memref sig .tc .vmem S1x1x4096 .f32) (harg5 : arg5.IsWhole) (arg6 : Memref sig .tc .vmem S1x4096 .f32) (harg6 : arg6.IsWhole) (hc0 : ¬cond0_0 i) (hc1 : cond0_1 i)
    (x0 : Vec F S1x256x2 .f32) (x1 : Vec F S1x4096x2 .f32) (xs0 : Vec F S1x4096 .f32) :
    out0_C_3 c i arg2 harg2 arg3 harg3 arg4 harg4 arg5 harg5 arg6 harg6 hc0 hc1 x0 x1 xs0 = k0_pay2 (k0_pay1 (k0_pay6 x0 x1 xs0)) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3, View.readCov_unit_zero (S := S1x4096) _ hz2]
  simp only [View.readAt_eq_ld, harg2.read_unread, harg3.read_unread, harg6.read_unread,
    View.ld_unit_zero (S := S1x256x2) hz3, View.ld_unit_zero (S := S1x4096x2) hz3, View.ld_unit_zero (S := S1x4096) hz2]

end Cert.KernelIdeal.Pieces

end
-- ==== Proof.Blocks.lean ====
/-
  Where the blocks sit in the arrays.

  The grid has 8 × 16 points, in row-major order: point `t` works on batch entry `t / 16` and on tile `t % 16` of its 256
  points of `pred`. The first input's block at `t` is rows 256·(t % 16) … 256·(t % 16) + 255 of `pred[t / 16]`; the second
  input's block is all of `gt[t / 16]`; the first output's block is columns 256·(t % 16) … of row `t / 16` of its array
  ([8, 1, 4096]); the second output's block is the whole of row `t / 16`. The index maps are decided once over the grid.
-/
import proofs.«148439_j40200893890957_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem hN : cfg0.N = 128 := N_0

/-- The batch entry a grid point works on. -/
def batch (t : Fin cfg0.N) : Fin 8 := ⟨t.val / 16, by have := t.isLt; have := hN; omega⟩

/-- Row `r` of the tile of `pred` a grid point works on, as a row of the cloud. -/
def tileRow (t : Fin cfg0.N) (r : Fin 256) : Fin 4096 := ⟨256 * (t.val % 16) + r.val, by have := r.isLt; omega⟩

/-- The index maps in closed form, decided over the grid. -/
theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, win0_0.index t (0 : Fin 3) = t.val / 16 ∧ win0_0.index t (1 : Fin 3) = t.val % 16 ∧ win0_0.index t (2 : Fin 3) = 0)
theorem idx1 : ∀ t : Fin cfg0.N, win0_1.index t (0 : Fin 3) = t.val / 16 ∧ win0_1.index t (1 : Fin 3) = 0 ∧ win0_1.index t (2 : Fin 3) = 0 :=
  (by decide +kernel : ∀ t : Fin grid0.N, win0_1.index t (0 : Fin 3) = t.val / 16 ∧ win0_1.index t (1 : Fin 3) = 0 ∧ win0_1.index t (2 : Fin 3) = 0)
theorem idx2 : ∀ t : Fin cfg0.N, win0_2.index t (0 : Fin 3) = t.val / 16 ∧ win0_2.index t (1 : Fin 3) = 0 ∧ win0_2.index t (2 : Fin 3) = t.val % 16 :=
  (by decide +kernel : ∀ t : Fin grid0.N, win0_2.index t (0 : Fin 3) = t.val / 16 ∧ win0_2.index t (1 : Fin 3) = 0 ∧ win0_2.index t (2 : Fin 3) = t.val % 16)
theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, win0_3.index t (0 : Fin 3) = t.val / 16 ∧ win0_3.index t (1 : Fin 3) = 0 ∧ win0_3.index t (2 : Fin 3) = 0)

/-- The block of `pred` at a grid point: row `r` of the block is row `tileRow t r` of batch entry `batch t`. -/
theorem iblk0_apply (c : Dev nD) (t : Fin cfg0.N) (r : Fin 256) (k : Fin 2) :
    (iblk m c 0 t : Vec F S1x256x2 .f32) (ix3 (0 : Fin 1) r k)
      = (m ((c : Thread nD τ).loc main_arg0) : Vec F S8x4096x2 .f32) (ix3 (batch t) (tileRow t r) k) := by
  obtain ⟨h0, h1, h2⟩ := idx0 t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 1 + 1 * 0 = t.val / 16; rw [h0]; omega
  | ⟨1, _⟩ => show win0_0.index t 1 * 256 + 1 * r.val = 256 * (t.val % 16) + r.val; rw [h1]; omega
  | ⟨2, _⟩ => show win0_0.index t 2 * 2 + 1 * k.val = k.val; rw [h2]; omega

/-- The block of `gt` at a grid point: all of batch entry `batch t`. -/
theorem iblk1_apply (c : Dev nD) (t : Fin cfg0.N) (q : Fin 4096) (k : Fin 2) :
    (iblk m c 1 t : Vec F S1x4096x2 .f32) (ix3 (0 : Fin 1) q k)
      = (m ((c : Thread nD τ).loc main_arg1) : Vec F S8x4096x2 .f32) (ix3 (batch t) q k) := by
  obtain ⟨h0, h1, h2⟩ := idx1 t
  unfold iblk
  rw [View.read_apply]
  show V m c main_arg1 _ = m (c.tc.loc main_arg1) _
  rw [V_main_arg1]
  refine congrArg _ (funext fun a => Fin.ext ?_)
  match a with
  | ⟨0, _⟩ => show win0_1.index t 0 * 1 + 1 * 0 = t.val / 16; rw [h0]; omega
  | ⟨1, _⟩ => show win0_1.index t 1 * 4096 + 1 * q.val = q.val; rw [h1]; omega
  | ⟨2, _⟩ => show win0_1.index t 2 * 2 + 1 * k.val = k.val; rw [h2]; omega

end Cert.KernelIdeal.Blocks

end
-- ==== Proof.Accum.lean ====
/-
  What the staging buffers hold after each grid point, at the ideal instance.

  Point `t` works on batch entry β = t / 16 and on tile i = t % 16 of `pred[β]`. After the body at `t`:

  * the first output's block holds, at (0, 0, r), the minimum over ALL points `q` of `gt[β]` of the distance from
    point 256·i + r of `pred[β]` — the whole row of the distance matrix lies inside the tile, so nothing is carried;
  * the carried buffer holds, at (0, q), the minimum over the points `p < 256·(i + 1)` of `pred[β]` of the distance to
    point `q` of `gt[β]`: the tiles 0 … i seen so far. At i = 0 the body starts again from +∞; afterwards it continues
    from what the point before left — an induction on the point, never an enumeration of the grid;
  * at the last tile (i = 15) the second output's block is a copy of the carried buffer, which by then has seen all
    4096 points.

  All three are stated through lower bounds (`z ≤ … ↔ …`), so that no order of taking minima is ever compared.
-/
import proofs.«148439_j40200893890957_2_alg».proof.Proof.Tile
import proofs.«148439_j40200893890957_2_alg».proof.Proof.Pieces
import proofs.«148439_j40200893890957_2_alg».proof.Proof.Blocks

noncomputable section

namespace Cert.KernelIdeal.Accum

open Cert.KernelIdeal Cert.KernelIdeal.Gen Idealize.ShloMosaic Idealize.ShloMosaic.TcCoe Idealize.SL.Sem
open Idealize.ShloMosaic.ValueIdx Cert.MinMatch
open Cert.KernelIdeal.Tile Cert.KernelIdeal.Pieces Cert.KernelIdeal.Blocks

variable (m : (ℓ : Loc nD τ sig) → Buf (Elt Ideal) ℓ)

/-- The two clouds as core `c` finds them in the argument arrays. -/
abbrev pred (c : Dev nD) : Cloud := m ((c : Thread nD τ).loc main_arg0)
abbrev gt (c : Dev nD) : Cloud := m ((c : Thread nD τ).loc main_arg1)

/-- An entry of the tile at point `t` is an entry of the distance matrix of batch entry `batch t`. -/
theorem tile_dist (c : Dev nD) (t : Fin cfg0.N) (r : Fin 256) (q : Fin 4096) :
    d (fun k => (iblk m c 0 t : Vec Ideal S1x256x2 .f32) (ix3 (0 : Fin 1) r k))
        (fun k => (iblk m c 1 t : Vec Ideal S1x4096x2 .f32) (ix3 (0 : Fin 1) q k))
      = dist (pred m c) (gt m c) (batch t) (tileRow t r) q :=
  congrArg₂ d (funext fun k => iblk0_apply m c t r k) (funext fun k => iblk1_apply m c t q k)

/-- The rows of the tile at point `t` are the rows 256·(t % 16) ≤ p < 256·(t % 16) + 256 of the matrix. -/
theorem tile_rows_iff (c : Dev nD) (t : Fin cfg0.N) (q : Fin 4096) (z : EReal) :
    (∀ r : Fin 256, z ≤ d (fun k => (iblk m c 0 t : Vec Ideal S1x256x2 .f32) (ix3 (0 : Fin 1) r k))
        (fun k => (iblk m c 1 t : Vec Ideal S1x4096x2 .f32) (ix3 (0 : Fin 1) q k)))
      ↔ ∀ p : Fin 4096, 256 * (t.val % 16) ≤ p.val → p.val < 256 * (t.val % 16) + 256 →
          z ≤ dist (pred m c) (gt m c) (batch t) p q := by
  constructor
  · intro H p hlo hhi
    have e : tileRow t ⟨p.val - 256 * (t.val % 16), by omega⟩ = p := Fin.ext (by show 256 * (t.val % 16) + (p.val - 256 * (t.val % 16)) = p.val; omega)
    have := H ⟨p.val - 256 * (t.val % 16), by omega⟩
    rwa [tile_dist, e] at this
  · intro H r
    rw [tile_dist]
    exact H (tileRow t r) (by show 256 * (t.val % 16) ≤ 256 * (t.val % 16) + r.val; omega)
      (by show 256 * (t.val % 16) + r.val < 256 * (t.val % 16) + 256; have := r.isLt; omega)

/-- Rows below `a` together with the next 256 rows are the rows below `a + 256`. -/
theorem split_rows (P : Fin 4096 → Prop) (a : ℕ) :
    ((∀ p : Fin 4096, p.val < a → P p) ∧ (∀ p : Fin 4096, a ≤ p.val → p.val < a + 256 → P p))
      ↔ ∀ p : Fin 4096, p.val < a + 256 → P p :=
  ⟨fun ⟨h1, h2⟩ p hp => (Nat.lt_or_ge p.val a).elim (h1 p) (fun h => h2 p h hp),
   fun h => ⟨fun p hp => h p (by omega), fun p _ hp => h p hp⟩⟩

/-! ## The first output's block: the row minima -/

theorem rowBlock_eq (c : Dev nD) (t : Fin cfg0.N) :
    (outsAt0 m c t.val t.isLt).1 = k0_pay5 (iblk m c 0 t) (iblk m c 1 t) := by
  by_cases h0 : t.val % 16 = 0
  · have h1 : ¬t.val % 16 = 15 := by omega
    rw [outsAt0_A m c t h0 h1]; dsimp only
    exact out_A_2 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 16 = 15
    · rw [outsAt0_C m c t h0 h1]; dsimp only
      exact out_C_2 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]; dsimp only
      exact out_B_2 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- After point `t` the first output's block holds the row minima of rows 256·(t % 16) + r of batch entry `batch t`. -/
theorem le_rowBlock_iff (c : Dev nD) (t : Fin cfg0.N) (r : Fin 256) (z : EReal) :
    z ≤ (outsAt0 m c t.val t.isLt).1 (ix3 (0 : Fin 1) (0 : Fin 1) r)
      ↔ z ≤ INF ∧ ∀ q : Fin 4096, z ≤ dist (pred m c) (gt m c) (batch t) (tileRow t r) q := by
  rw [rowBlock_eq]
  exact (le_pay5_iff _ _ r z).trans (and_congr_right fun _ => forall_congr' fun q => by rw [tile_dist])

/-! ## The carried buffer: the running column minima -/

/-- At the first tile of a batch entry the running minima restart from +∞. -/
theorem carried_first (c : Dev nD) (t : Fin cfg0.N) (h0 : t.val % 16 = 0) :
    (outsAt0 m c t.val t.isLt).2.2 = k0_pay1 (k0_pay6 (iblk m c 0 t) (iblk m c 1 t) (k0_pay3 (F := Ideal))) := by
  have h1 : ¬t.val % 16 = 15 := by omega
  rw [outsAt0_A m c t h0 h1]; dsimp only
  exact sout_A_0 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)

/-- At a later tile they continue from what the point before left. -/
theorem carried_next (c : Dev nD) (t : Fin cfg0.N) (h0 : ¬t.val % 16 = 0) :
    (outsAt0 m c t.val t.isLt).2.2
      = k0_pay1 (k0_pay6 (iblk m c 0 t) (iblk m c 1 t) (outsAt0 m c (t.val - 1) (Nat.lt_of_le_of_lt (Nat.sub_le _ _) t.isLt)).2.2) := by
  by_cases h1 : t.val % 16 = 15
  · rw [outsAt0_C m c t h0 h1]; dsimp only
    exact sout_C_0 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
  · rw [outsAt0_B m c t h0 h1]; dsimp only
    exact sout_B_0 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- After point `n` the carried buffer holds, at (0, q), the minimum of column `q` over the rows of the tiles seen so far. -/
theorem le_carried_iff (c : Dev nD) : ∀ (n : ℕ) (h : n < cfg0.N) (q : Fin 4096) (z : EReal),
    z ≤ (outsAt0 m c n h).2.2 (ix2 (0 : Fin 1) q)
      ↔ z ≤ INF ∧ ∀ p : Fin 4096, p.val < 256 * (n % 16) + 256 → z ≤ dist (pred m c) (gt m c) (batch ⟨n, h⟩) p q := by
  intro n
  induction n with
  | zero =>
    intro h q z
    rw [carried_first m c ⟨0, h⟩ rfl, pay1_eq, le_pay6_iff, pay3_apply, tile_rows_iff]
    constructor
    · rintro ⟨hI, -, H⟩
      exact ⟨hI, fun p hp => H p (Nat.zero_le _) hp⟩
    · rintro ⟨hI, H⟩
      exact ⟨hI, hI, fun p _ hp => H p hp⟩
  | succ n ih =>
    intro h q z
    by_cases h0 : (n + 1) % 16 = 0
    · rw [carried_first m c ⟨n + 1, h⟩ h0, pay1_eq, le_pay6_iff, pay3_apply, tile_rows_iff]
      have e : 256 * ((⟨n + 1, h⟩ : Fin cfg0.N).val % 16) = 0 := by show 256 * ((n + 1) % 16) = 0; omega
      rw [e]
      constructor
      · rintro ⟨hI, -, H⟩
        exact ⟨hI, fun p hp => H p (Nat.zero_le _) (by omega)⟩
      · rintro ⟨hI, H⟩
        exact ⟨hI, hI, fun p _ hp => H p (by omega)⟩
    · have hn : n < cfg0.N := Nat.lt_of_succ_lt h
      have hb : batch ⟨n, hn⟩ = batch ⟨n + 1, h⟩ := Fin.ext (by show n / 16 = (n + 1) / 16; omega)
      have hi : 256 * (n % 16) + 256 = 256 * ((n + 1) % 16) := by omega
      rw [carried_next m c ⟨n + 1, h⟩ h0, pay1_eq, le_pay6_iff, tile_rows_iff]
      rw [show (outsAt0 m c ((⟨n + 1, h⟩ : Fin cfg0.N).val - 1) (Nat.lt_of_le_of_lt (Nat.sub_le _ _) (⟨n + 1, h⟩ : Fin cfg0.N).isLt)).2.2 (ix2 (0 : Fin 1) q)
        = (outsAt0 m c n hn).2.2 (ix2 (0 : Fin 1) q) from rfl]
      rw [ih hn q z, hb, hi]
      show (z ≤ INF ∧ _) ∧ z ≤ INF ∧ (∀ p : Fin 4096, 256 * ((n + 1) % 16) ≤ p.val → p.val < 256 * ((n + 1) % 16) + 256 → _) ↔ _
      rw [← split_rows (fun p => z ≤ dist (pred m c) (gt m c) (batch ⟨n + 1, h⟩) p q) (256 * ((n + 1) % 16))]
      constructor
      · rintro ⟨⟨hI, H1⟩, -, H2⟩
        exact ⟨hI, H1, H2⟩
      · rintro ⟨hI, H1, H2⟩
        exact ⟨⟨hI, H1⟩, hI, H2⟩

/-! ## The second output's block at the last tile: the column minima -/

theorem colBlock_eq (c : Dev nD) (t : Fin cfg0.N) (h1 : t.val % 16 = 15) (q : Fin 4096) :
    (outsAt0 m c t.val t.isLt).2.1 (ix3 (0 : Fin 1) (0 : Fin 1) q) = (outsAt0 m c t.val t.isLt).2.2 (ix2 (0 : Fin 1) q) := by
  have h0 : ¬t.val % 16 = 0 := by omega
  rw [outsAt0_C m c t h0 h1]; dsimp only
  rw [out_C_3 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2,
    sout_C_0 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2]
  exact pay2_apply _ q

/-- After the last tile of a batch entry the second output's block holds the column minima over all 4096 rows. -/
theorem le_colBlock_iff (c : Dev nD) (t : Fin cfg0.N) (h1 : t.val % 16 = 15) (q : Fin 4096) (z : EReal) :
    z ≤ (outsAt0 m c t.val t.isLt).2.1 (ix3 (0 : Fin 1) (0 : Fin 1) q)
      ↔ z ≤ INF ∧ ∀ p : Fin 4096, z ≤ dist (pred m c) (gt m c) (batch t) p q := by
  rw [colBlock_eq m c t h1 q, le_carried_iff m c t.val t.isLt q z]
  refine and_congr_right fun _ => forall_congr' fun p => ?_
  have : p.val < 256 * (t.val % 16) + 256 := by have := p.isLt; omega
  exact ⟨fun H => H this, fun H _ => H⟩

end Cert.KernelIdeal.Accum

end
-- ==== Proof.Tail.lean ====
/-
  The last steps, shared by both programs: from the two arrays of minima to the loss.

  Both programs finish with the same host operations on two [8, 4096] arrays `A` and `B`:

      ½ · ( (0 + Σ A) / 32768  +  (0 + Σ B) / 32768 ),

  the mean of the column minima plus the mean of the row minima, halved. The certificate never opens these steps: it shows
  the two programs feed them equal arrays.
-/
import Idealize.ShloMosaic.PureOps.Ideal.Laws
import Idealize.ShloMosaic.Lib.ValueIdx

noncomputable section

namespace Cert.MinMatch

open Idealize.ShloMosaic

/-- Half the sum of the two means, as the host computes it (single-precision words of 0, 32768 and ½). -/
def loss (hr : (⟨2, ![8, 4096]⟩ : Shape).ReducesTo [0, 1] ⟨0, ![]⟩) (h0 : 0 < (⟨0, ![]⟩ : Shape).numel)
    (A B : (⟨2, ![8, 4096]⟩ : Shape).Idx → EReal) : (⟨0, ![]⟩ : Shape).Idx → EReal :=
  mulf (F := Ideal) (φ := .f32) (constant (F := Ideal) ⟨0, ![]⟩ .f32 0x3F000000#32)
    (addf (F := Ideal) (φ := .f32)
      (Host.divf (F := Ideal) (φ := .f32) (Host.reduceAdd (F := Ideal) (φ := .f32) A (constant (F := Ideal) ⟨0, ![]⟩ .f32 0x00000000#32) hr h0)
        (constant (F := Ideal) ⟨0, ![]⟩ .f32 0x47000000#32))
      (Host.divf (F := Ideal) (φ := .f32) (Host.reduceAdd (F := Ideal) (φ := .f32) B (constant (F := Ideal) ⟨0, ![]⟩ .f32 0x00000000#32) hr h0)
        (constant (F := Ideal) ⟨0, ![]⟩ .f32 0x47000000#32)))

end Cert.MinMatch

end
-- ==== Proof.Final.lean ====
/-
  The kernel's two output arrays, and its result.

  Each grid point writes its row minima back to columns 256·(t % 16) … of row t / 16 of the first output array: the 128
  blocks tile the [8, 1, 4096] array, so it ends holding the row minima of every batch entry. The second output's block —
  the whole of row t / 16 — is written back only after the last tile of a batch entry, when the carried buffer has seen all
  4096 points of `pred`: the eight write-backs tile the array with the column minima. The host operations after the
  kernel drop the unit axis of both arrays and apply the shared last steps.
-/
import proofs.«148439_j40200893890957_2_alg».proof.Proof.Accum
import proofs.«148439_j40200893890957_2_alg».proof.Proof.Tail
import Idealize.ShloMosaic.Lib.Pipeline.Value
import Idealize.ShloMosaic.Lib.StableHlo.Run
import Idealize.ShloMosaic.Lib.ValueLayout

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.MinMatch
open Cert.KernelIdeal.Blocks Cert.KernelIdeal.Accum

variable (m : (ℓ : Loc nD τ sig) → Buf (Elt Ideal) ℓ) (ρ : Dev nD → PrngReg)

/-! ## What a point writes back -/

theorem rowBlock_apply (c : Dev nD) (t : Fin cfg0.N) (r : Fin 256) :
    (outsAt0 m c t.val t.isLt).1 (ix3 (0 : Fin 1) (0 : Fin 1) r) = rowMin (pred m c) (gt m c) (batch t) (tileRow t r) :=
  Cert.MinReduce.eq_of_forall_le_iff fun z => (le_rowBlock_iff m c t r z).trans (le_rowMin_iff _ _ _ _ z).symm

theorem colBlock_apply (c : Dev nD) (t : Fin cfg0.N) (h1 : t.val % 16 = 15) (q : Fin 4096) :
    (outsAt0 m c t.val t.isLt).2.1 (ix3 (0 : Fin 1) (0 : Fin 1) q) = colMin (pred m c) (gt m c) (batch t) q :=
  Cert.MinReduce.eq_of_forall_le_iff fun z => (le_colBlock_iff m c t h1 q z).trans (le_colMin_iff _ _ _ _ z).symm

/-- Every point writes back a block of the array of row minima. -/
theorem flushed2_eq (c : Dev nD) (t : Fin cfg0.N) :
    (dats m 0 c).flushed 2 t = ((cfg0.win 2).blk t).view.read (Elt Ideal) (rowMinArr (pred m c) (gt m c)) := by
  show (cfg0.win 2).cut (grid0.coords t) ((dats m 0 c).after 2 t) = _
  rw [after0_2]
  obtain ⟨h0, h1, h2⟩ := idx2 t
  funext y
  show (outsAt0 m c t.val t.isLt).1 y = rowMinArr (pred m c) (gt m c) (((cfg0.win 2).blk t).view.emb y)
  obtain ⟨r, rfl⟩ : ∃ r : Fin 256, y = ix3 (0 : Fin 1) (0 : Fin 1) r := ⟨⟨(y 2).val, (y 2).isLt⟩, funext fun a => Fin.ext (by
    match a with
    | ⟨0, _⟩ => have : (y 0).val < 1 := (y 0).isLt; show (y 0).val = 0; omega
    | ⟨1, _⟩ => have : (y 1).val < 1 := (y 1).isLt; show (y 1).val = 0; omega
    | ⟨2, _⟩ => rfl)⟩
  rw [rowBlock_apply]
  unfold rowMinArr
  refine congrArg₂ (rowMin (pred m c) (gt m c)) (Fin.ext ?_) (Fin.ext ?_)
  · show t.val / 16 = win0_2.index t 0 * 1 + 1 * 0; rw [h0]; omega
  · show 256 * (t.val % 16) + r.val = win0_2.index t 2 * 256 + 1 * r.val; rw [h2]; omega

/-- The point after the last tile of a batch entry writes back a block of the array of column minima. -/
theorem flushed3_eq (c : Dev nD) (t : Fin cfg0.N) (hf : (cfg0.win 3).flush t = true) :
    (dats m 0 c).flushed 3 t = ((cfg0.win 3).blk t).view.read (Elt Ideal) (colMinArr (pred m c) (gt m c)) := by
  have h15 : t.val % 16 = 15 := (flush0_3 t).mp hf
  show (cfg0.win 3).cut (grid0.coords t) ((dats m 0 c).after 3 t) = _
  rw [after0_3]
  obtain ⟨h0, h1, h2⟩ := idx3 t
  funext y
  show (outsAt0 m c t.val t.isLt).2.1 y = colMinArr (pred m c) (gt m c) (((cfg0.win 3).blk t).view.emb y)
  obtain ⟨q, rfl⟩ : ∃ q : Fin 4096, y = ix3 (0 : Fin 1) (0 : Fin 1) q := ⟨⟨(y 2).val, (y 2).isLt⟩, funext fun a => Fin.ext (by
    match a with
    | ⟨0, _⟩ => have : (y 0).val < 1 := (y 0).isLt; show (y 0).val = 0; omega
    | ⟨1, _⟩ => have : (y 1).val < 1 := (y 1).isLt; show (y 1).val = 0; omega
    | ⟨2, _⟩ => rfl)⟩
  rw [colBlock_apply m c t h15]
  unfold colMinArr
  refine congrArg₂ (colMin (pred m c) (gt m c)) (Fin.ext ?_) (Fin.ext ?_)
  · show t.val / 16 = win0_3.index t 0 * 1 + 1 * 0; rw [h0]; omega
  · show q.val = win0_3.index t 2 * 4096 + 1 * q.val; rw [h2]; omega

/-! ## The blocks tile the arrays -/

theorem mem_blk2 (t : Fin cfg0.N) (i : S8x1x4096.Idx) :
    i ∈ ((cfg0.win 2).blk t).view.set ↔ ∀ a : Fin 3, win0_2.index t a * S1x1x256.size a ≤ (i a).val ∧ (i a).val < win0_2.index t a * S1x1x256.size a + S1x1x256.size a := by
  show i ∈ ((View.whole main_v0_0).slice (win0_2.rect t)).set ↔ _
  rw [View.set_slice_whole, Rect.mem_set_unit]
  exact Iff.rfl

theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Entry (β, 0, n) of the first array is in the block of point 16·β + n / 256. -/
theorem cover2 (i : S8x1x4096.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 4096 := (i 2).isLt
  obtain ⟨t, ht⟩ : ∃ t : Fin cfg0.N, t.val = 16 * (i 0).val + (i 2).val / 256 := ⟨⟨_, by rw [hN]; omega⟩, rfl⟩
  refine ⟨t, flush0_2 t, ?_⟩
  rw [mem_blk2]
  obtain ⟨h0, h1, h2⟩ := idx2 t
  intro a
  match a with
  | ⟨0, _⟩ => show win0_2.index t 0 * 1 ≤ (i 0).val ∧ (i 0).val < win0_2.index t 0 * 1 + 1; rw [h0]; omega
  | ⟨1, _⟩ => show win0_2.index t 1 * 1 ≤ (i 1).val ∧ (i 1).val < win0_2.index t 1 * 1 + 1; rw [h1]; omega
  | ⟨2, _⟩ => show win0_2.index t 2 * 256 ≤ (i 2).val ∧ (i 2).val < win0_2.index t 2 * 256 + 256; rw [h2]; omega

/-- Entry (β, 0, q) of the second array is in the block of point 16·β + 15, which writes it back. -/
theorem cover3 (i : S8x1x4096.Idx) : ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 4096 := (i 2).isLt
  obtain ⟨t, ht⟩ : ∃ t : Fin cfg0.N, t.val = 16 * (i 0).val + 15 := ⟨⟨_, by rw [hN]; omega⟩, rfl⟩
  refine ⟨t, (flush0_3 t).mpr (by omega), ?_⟩
  rw [mem_blk3]
  obtain ⟨h0, h1, h2⟩ := idx3 t
  intro a
  match a with
  | ⟨0, _⟩ => show win0_3.index t 0 * 1 ≤ (i 0).val ∧ (i 0).val < win0_3.index t 0 * 1 + 1; rw [h0]; omega
  | ⟨1, _⟩ => show win0_3.index t 1 * 1 ≤ (i 1).val ∧ (i 1).val < win0_3.index t 1 * 1 + 1; rw [h1]; omega
  | ⟨2, _⟩ => show win0_3.index t 2 * 4096 ≤ (i 2).val ∧ (i 2).val < win0_3.index t 2 * 4096 + 4096; rw [h2]; omega

/-- The first output array ends holding the row minima, -/
theorem final2 (c : Dev nD) : (dats m 0 c).arrAt 2 cfg0.N = rowMinArr (pred m c) (gt m c) :=
  (dats m 0 c).arrAt_eq_of_cover 2 (rowMinArr (pred m c) (gt m c)) (fun t _ => flushed2_eq m c t) cover2

/-- and the second the column minima. -/
theorem final3 (c : Dev nD) : (dats m 0 c).arrAt 3 cfg0.N = colMinArr (pred m c) (gt m c) :=
  (dats m 0 c).arrAt_eq_of_cover 3 (colMinArr (pred m c) (gt m c)) (fun t hf => flushed3_eq m c t hf) cover3

/-! ## After the kernel: the unit axis dropped, then the shared last steps -/

/-- An [a, 1, b] array cast to [a, b] reads, at (i, j), the operand at (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

theorem rowMat_eq (P G : Cloud) (h : (⟨3, ![8, 1, 4096]⟩ : Shape).ShapeCasts ⟨2, ![8, 4096]⟩) :
    shapeCast ⟨2, ![8, 4096]⟩ (rowMinArr P G) h = rowMinMat P G :=
  funext fun j => by
    obtain ⟨β, q, rfl⟩ : ∃ (β : Fin 8) (q : Fin 4096), j = ix2 β q := ⟨j 0, j 1, eq_ix2 j⟩
    exact shapeCast_a1b_ab_apply (rowMinArr P G) h β q

theorem colMat_eq (P G : Cloud) (h : (⟨3, ![8, 1, 4096]⟩ : Shape).ShapeCasts ⟨2, ![8, 4096]⟩) :
    shapeCast ⟨2, ![8, 4096]⟩ (colMinArr P G) h = colMinMat P G :=
  funext fun j => by
    obtain ⟨β, q, rfl⟩ : ∃ (β : Fin 8) (q : Fin 4096), j = ix2 β q := ⟨j 0, j 1, eq_ix2 j⟩
    exact shapeCast_a1b_ab_apply (colMinArr P G) h β q

/-- The kernel program's result: the shared last steps of the column minima and the row minima. -/
theorem tail_eq (c : Dev nD) :
    Pipeline.afterTail₀ cfgs (dats m) 0 (V0 m) [hostOps1] c main_v8
      = loss reducesTo_S8x4096_S_d0_1 h_S_ (colMinMat (pred m c) (gt m c)) (rowMinMat (pred m c) (gt m c)) := by
  have e3 := (Pipeline.withArrays_arr spec0 launch0.win.arr_inj c (V0 m c) (fun w => (dats m 0 c).arrAt w cfg0.N) 3).trans (final3 m c)
  have e2 := (Pipeline.withArrays_arr spec0 launch0.win.arr_inj c (V0 m c) (fun w => (dats m 0 c).arrAt w cfg0.N) 2).trans (final2 m c)
  unfold Pipeline.afterTail₀
  show StableHlo.after hostOps1 _ (Proc.devRef .tc main_v8) = _
  after_results
  show loss reducesTo_S8x4096_S_d0_1 h_S_
      (shapeCast S8x4096 (Pipeline.withArrays spec0 c (V0 m c) (fun w => (dats m 0 c).arrAt w cfg0.N) (Proc.devRef .tc (Pipeline.arrRef spec0 3))) shapeCasts_S8x1x4096_S8x4096)
      (shapeCast S8x4096 (Pipeline.withArrays spec0 c (V0 m c) (fun w => (dats m 0 c).arrAt w cfg0.N) (Proc.devRef .tc (Pipeline.arrRef spec0 2))) shapeCasts_S8x1x4096_S8x4096) = _
  rw [e3, e2, colMat_eq, rowMat_eq]

/-- The run, read: the result at the shared last steps of the two arrays of minima, the arguments unchanged. -/
theorem run : θ_run defs (onTc (τ := τ) (main (F := Ideal))) ⟨m, fun _ => 0, ρ⟩ fun r => ∀ c : Dev nD,
      r.2.mem ((c : Thread nD τ).loc main_v8)
        = loss reducesTo_S8x4096_S_d0_1 h_S_ (colMinMat (pred m c) (gt m c)) (rowMinMat (pred m c) (gt m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.RefValue.lean ====
/-
  The reference computes the specification.

  The reference forms the whole [8, 4096, 4096] matrix of clamped distances at once — squared norms by sums over the
  coordinate axis, spread along the other cloud's axis; inner products by a batched product; then √(max(·, ε)) — and
  entry (β, n, q) is `dist pred gt β n q`. Its minimum over the middle axis (the points of `pred`) is the column minimum,
  over the last axis (the points of `gt`) the row minimum; both are identified through their lower bounds. What follows
  (the two means and the halving) is the shared last steps `loss`.
-/
import proofs.«148439_j40200893890957_2_alg».proof.Proof.Gen.ReferenceIdeal.Read
import proofs.«148439_j40200893890957_2_alg».proof.Proof.Spec
import proofs.«148439_j40200893890957_2_alg».proof.Proof.Tail

noncomputable section

namespace Cert.ReferenceIdeal.RefValue

open Cert.ReferenceIdeal Cert.ReferenceIdeal.Gen Cert.ReferenceIdeal.Read
open Idealize.ShloMosaic Idealize.ShloMosaic.ValueIdx Cert.MinMatch

/-- Entry (β, n, q) of the reference's distance matrix. -/
theorem matrix_apply (x0 x1 : (⟨S8x4096x2, .f32⟩ : BufTy).Contents (Elt Ideal)) (β : Fin 8) (n q : Fin 4096) :
    val_main_v15 (F := Ideal) x0 x1 (ix3 β n q) = Cert.MinMatch.dist x0 x1 β n q := by
  have e1 : ∀ k : Fin 2, idx_main_v1 (idx_main_v5 (idx_main_v7 (ix3 β n q))) k = ix3 β n k := fun k =>
    funext fun a => Fin.ext (by match a with | ⟨0, _⟩ => rfl | ⟨1, _⟩ => rfl | ⟨2, _⟩ => rfl)
  have e3 : ∀ k : Fin 2, idx_main_v3 (idx_main_v6 (idx_main_v8 (ix3 β n q))) k = ix3 β q k := fun k =>
    funext fun a => Fin.ext (by match a with | ⟨0, _⟩ => rfl | ⟨1, _⟩ => rfl | ⟨2, _⟩ => rfl)
  have el : ∀ k : Fin 2, lidx_main_v4 (ix3 β n q) k = ix3 β n k := fun k =>
    funext fun a => Fin.ext (by match a with | ⟨0, _⟩ => rfl | ⟨1, _⟩ => rfl | ⟨2, _⟩ => rfl)
  have er : ∀ k : Fin 2, ridx_main_v4 (ix3 β n q) k = ix3 β q k := fun k =>
    funext fun a => Fin.ext (by match a with | ⟨0, _⟩ => rfl | ⟨1, _⟩ => rfl | ⟨2, _⟩ => rfl)
  unfold Cert.MinMatch.dist Cert.MinMatch.d
  rw [val_main_v15_apply, val_main_v14_apply, val_main_v12_apply, val_main_v9_apply, val_main_v7_apply, val_main_v5_apply,
    val_main_v1_apply, val_main_v8_apply, val_main_v6_apply, val_main_v3_apply, val_main_v11_apply, val_main_v10_apply,
    val_main_v4_apply, val_main_v13_apply]
  simp only [val_main_v0_apply, val_main_v2_apply, val_main_cst_apply, val_main_cst_0_apply, val_main_cst_1_apply,
    val_main_cst_2_apply, e1, e3, el, er, Ideal.mulf_def, Ideal.addf_def, Ideal.subf_def, Ideal.maximumf_def,
    Ideal.hostUnary_sqrt_def, Ideal.ofBits_def, Ideal.ofBits_zero_f32, zero_add]

/-- The minimum over the points of `pred` (the middle axis): the column minimum. -/
theorem v16_apply (x0 x1 : (⟨S8x4096x2, .f32⟩ : BufTy).Contents (Elt Ideal)) (β : Fin 8) (q : Fin 4096) :
    val_main_v16 (F := Ideal) x0 x1 (ix2 β q) = colMin x0 x1 β q := by
  refine Cert.MinReduce.eq_of_forall_le_iff fun z => ?_
  unfold val_main_v16
  refine ((Cert.MinReduce.le_hostMin_mid_iff (val_main_v15 (F := Ideal) x0 x1) (val_main_cst_3 (F := Ideal))
    reducesTo_S8x4096x4096_S8x4096_d1 (by decide) h_S_ β q z).trans ?_).trans (le_colMin_iff x0 x1 β q z).symm
  rw [val_main_cst_3_apply]
  exact and_congr_right fun _ => forall_congr' fun p => by rw [matrix_apply]

/-- The minimum over the points of `gt` (the last axis): the row minimum. -/
theorem v17_apply (x0 x1 : (⟨S8x4096x2, .f32⟩ : BufTy).Contents (Elt Ideal)) (β : Fin 8) (n : Fin 4096) :
    val_main_v17 (F := Ideal) x0 x1 (ix2 β n) = rowMin x0 x1 β n := by
  refine Cert.MinReduce.eq_of_forall_le_iff fun z => ?_
  unfold val_main_v17
  refine ((Cert.MinReduce.le_hostMin_last_iff (val_main_v15 (F := Ideal) x0 x1) (val_main_cst_4 (F := Ideal))
    reducesTo_S8x4096x4096_S8x4096_d2 (by decide) h_S_ β n z).trans ?_).trans (le_rowMin_iff x0 x1 β n z).symm
  rw [val_main_cst_4_apply]
  exact and_congr_right fun _ => forall_congr' fun p => by rw [matrix_apply]

/-- The reference's result: the shared last steps of the column minima and the row minima. -/
theorem result_eq (x0 x1 : (⟨S8x4096x2, .f32⟩ : BufTy).Contents (Elt Ideal)) :
    val_main_v23 (F := Ideal) x0 x1 = loss reducesTo_S8x4096_S_d0_1 h_S_ (colMinMat x0 x1) (rowMinMat x0 x1) := by
  have eA : val_main_v16 (F := Ideal) x0 x1 = colMinMat x0 x1 := funext fun j => by
    rw [eq_ix2 j]; exact v16_apply x0 x1 _ _
  have eB : val_main_v17 (F := Ideal) x0 x1 = rowMinMat x0 x1 := funext fun j => by
    rw [eq_ix2 j]; exact v17_apply x0 x1 _ _
  rw [← eA, ← eB]
  rfl

end Cert.ReferenceIdeal.RefValue

end
-- ==== Proof.lean ====
/-
  The kernel computes the same loss as its reference, over the extended reals.

  Both programs take two batches of point clouds `pred, gt : [8, 4096, 2]` and return

      ½ · ( mean_{β,q} min_p dist β p q  +  mean_{β,p} min_q dist β p q ),

  where `dist β p q = √(max(|pred β p|² + |gt β q|² − 2⟨pred β p, gt β q⟩, ε))` (Proof/Spec.lean). The reference builds
  the whole distance matrix and takes both minima at once (Proof/RefValue.lean). The kernel walks the matrix of each
  batch entry in sixteen tiles of 256 rows: a tile's row minima are complete and are written out at once; its column
  minima are folded into a buffer carried from tile to tile, reset to +∞ at the first tile and written out after the
  last (Proof/Tile.lean, Proof/Pieces.lean, Proof/Blocks.lean, Proof/Accum.lean, Proof/Final.lean). A minimum is only
  ever used through its lower bounds, so the two orders of folding — sixteen partial minima against one minimum over
  4096 entries — are never compared term by term; and since both sides build every matrix entry by the same operations on
  the same numbers, no finiteness of the inputs is needed. The last steps (sums, division by 32768, halving) are the
  same host operations in both programs and are never opened (Proof/Tail.lean).

  The three frame claims are the generated frames (the reference's is its generated run with the result dropped); the
  idealization rewrote nothing, so `preserves` is trivial.
-/
import proofs.«148439_j40200893890957_2_alg».proof.Defs
import proofs.«148439_j40200893890957_2_alg».proof.Proof.Gen.Kernel
import proofs.«148439_j40200893890957_2_alg».proof.Proof.Gen.Kernel.Skeleton
import proofs.«148439_j40200893890957_2_alg».proof.Proof.Gen.Kernel.Launch
import proofs.«148439_j40200893890957_2_alg».proof.Proof.Gen.Kernel.Points
import proofs.«148439_j40200893890957_2_alg».proof.Proof.Gen.Kernel.Frame
import proofs.«148439_j40200893890957_2_alg».proof.Proof.Gen.KernelIdeal
import proofs.«148439_j40200893890957_2_alg».proof.Proof.Gen.KernelIdeal.Skeleton
import proofs.«148439_j40200893890957_2_alg».proof.Proof.Gen.KernelIdeal.Launch
import proofs.«148439_j40200893890957_2_alg».proof.Proof.Gen.KernelIdeal.Points
import proofs.«148439_j40200893890957_2_alg».proof.Proof.Gen.KernelIdeal.Frame
import proofs.«148439_j40200893890957_2_alg».proof.Proof.Gen.ReferenceIdeal
import proofs.«148439_j40200893890957_2_alg».proof.Proof.Gen.ReferenceIdeal.Run
import proofs.«148439_j40200893890957_2_alg».proof.Proof.Gen.ReferenceIdeal.Read
import proofs.«148439_j40200893890957_2_alg».proof.Proof.Gen.Pre_finite_inputs
import proofs.«148439_j40200893890957_2_alg».proof.Proof.Final
import proofs.«148439_j40200893890957_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the shared last steps of the column minima and the row minima of clouds that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
